-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1000000x128 : Shape := ⟨2, ![1000000, 128]⟩
abbrev S256 : Shape := ⟨1, ![256]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S1000000x128 .f32) (main_arg1 : IVec S256 32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_c_0 : IVec S_ 32 := constantI S_ 32 0#32
  let main_v4 : IVec S256 32 := broadcastInDim S256 ![] bcast_S_S256 main_c_0
  let main_v5 : IVec S256 1 := cmpi .sge main_arg1 main_v4
  let main_c_1 : IVec S_ 32 := constantI S_ 32 255000#32
  let main_v6 : IVec S256 32 := broadcastInDim S256 ![] bcast_S_S256 main_c_1
  let main_v7 : IVec S256 1 := cmpi .sle main_arg1 main_v6
  let main_v8 : IVec S256 1 := andi main_v5 main_v7
  let main_c_2 : IVec S_ 1 := constantI S_ 1 1#1
  let main_v9 : IVec S_ 1 := (fun x v => Host.reduce IntOp.andi x v reducesTo_S256_S_d0 h_S_) main_v8 main_c_2
  let main_v10 : IVec S_ 1 := andi main_v3 main_v9
  main_v10
-- ==== Kernel.lean ====
abbrev S1000000x128 : Shape := ⟨2, ![1000000, 128]⟩
abbrev S256 : Shape := ⟨1, ![256]⟩
abbrev S256x128 : Shape := ⟨2, ![256, 128]⟩
abbrev S16 : Shape := ⟨1, ![16]⟩
abbrev S16x128 : Shape := ⟨2, ![16, 128]⟩
abbrev S_ : Shape := ⟨0, ![]⟩

abbrev nBuf : Table → Nat
  | .hbm => 3
  | .local .scVector .vmem => 2
  | _ => 0

abbrev bufTy : (tb : Table) → Fin (nBuf tb) → BufTy
  | .hbm, ⟨0, _⟩ => ⟨S1000000x128, .f32⟩
  | .hbm, ⟨1, _⟩ => ⟨S256, .i32⟩
  | .hbm, ⟨2, _⟩ => ⟨S256x128, .f32⟩
  | .local .scVector .vmem, ⟨0, _⟩ => ⟨S16, .i32⟩
  | .local .scVector .vmem, ⟨1, _⟩ => ⟨S16x128, .f32⟩
  | _, _ => ⟨S1000000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c16_i32 : BitVec 32 := 16#32
  let v2 : BitVec 32 := Scalar.muli v1 c16_i32
  ![v2.toNat]
def k0_off2 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S1000000x128_S1000000x128_0_0 : ∀ a, (![0, 0] : Fin 2 → Nat) a + S1000000x128.size a ≤ S1000000x128.size a
  gathers_S1000000x128_S16x128 : S1000000x128.Gathers 0 S16x128
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S16.size a ≤ S256.size a
  k0_off2_inb : ∀ i : grid0.Coords, ∀ a, (k0_off2 i) a + S16x128.size a ≤ S256x128.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S1000000x128 : Shape := ⟨2, ![1000000, 128]⟩
abbrev S256 : Shape := ⟨1, ![256]⟩
abbrev S_ : Shape := ⟨0, ![]⟩
abbrev S256x1 : Shape := ⟨2, ![256, 1]⟩
abbrev S1 : Shape := ⟨1, ![1]⟩
abbrev S1x1 : Shape := ⟨2, ![1, 1]⟩
abbrev S256x128 : Shape := ⟨2, ![256, 128]⟩

abbrev nBuf : Space → Nat
  | .hbm => 25
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S256, .i32⟩
  | .hbm, ⟨2, _⟩ => ⟨S_, .i32⟩
  | .hbm, ⟨3, _⟩ => ⟨S256, .i32⟩
  | .hbm, ⟨4, _⟩ => ⟨S256, .i1⟩
  | .hbm, ⟨5, _⟩ => ⟨S_, .i32⟩
  | .hbm, ⟨6, _⟩ => ⟨S256, .i32⟩
  | .hbm, ⟨7, _⟩ => ⟨S256, .i32⟩
  | .hbm, ⟨8, _⟩ => ⟨S256, .i32⟩
  | .hbm, ⟨9, _⟩ => ⟨S256x1, .i32⟩
  | .hbm, ⟨10, _⟩ => ⟨S1, .i32⟩
  | .hbm, ⟨11, _⟩ => ⟨S_, .i32⟩
  | .hbm, ⟨12, _⟩ => ⟨S256x1, .i32⟩
  | .hbm, ⟨13, _⟩ => ⟨S256x1, .i1⟩
  | .hbm, ⟨14, _⟩ => ⟨S1x1, .i32⟩
  | .hbm, ⟨15, _⟩ => ⟨S256x1, .i32⟩
  | .hbm, ⟨16, _⟩ => ⟨S256x1, .i1⟩
  | .hbm, ⟨17, _⟩ => ⟨S256x1, .i1⟩
  | .hbm, ⟨18, _⟩ => ⟨S_, .i1⟩
  | .hbm, ⟨19, _⟩ => ⟨S256, .i1⟩
  | .hbm, ⟨20, _⟩ => ⟨S256x128, .f32⟩
  | .hbm, ⟨21, _⟩ => ⟨S256x128, .i1⟩
  | .hbm, ⟨22, _⟩ => ⟨S_, .f32⟩
  | .hbm, ⟨23, _⟩ => ⟨S256x128, .f32⟩
  | .hbm, ⟨24, _⟩ => ⟨S256x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  h_S_ : 0 < S_.numel
  bcast_S256_S256x128_0 : S256.BroadcastsInDim S256x128 (![0] : Fin 1 → Fin S256x128.rank)
  bcast_S_S256x128 : S_.BroadcastsInDim S256x128 (![] : Fin 0 → Fin S256x128.rank)
  gather_S1000000x128_S256x1_S256x128_1_0_n_n_0_1_1128_wf : GatherDims.WF S1000000x128 S256x1 S256x128 [1] [0] [] [0] [] 1 ![1, 128]

variable [Facts₀]

def gather_S1000000x128_S256x1_S256x128_1_0_n_n_0_1_1128 : GatherDims S1000000x128 S256x1 S256x128 where
  offsetDims := [1]
  collapsedSliceDims := [0]
  operandBatchingDims := []
  startIndicesBatchingDims := []
  startIndexMap := [0]
  indexVectorDim := 1
  sliceSizes := ![1, 128]
  wf := gather_S1000000x128_S256x1_S256x128_1_0_n_n_0_1_1128_wf

class Facts : Prop extends Facts₀ where

variable [Facts]
-- ==== Proof.PreRange.lean ====
/-
  The precondition, read back: `input_domain` all ones says, among other things, that every word of the index list
  lies between 0 and 255000 as a signed number; such a word's unsigned value is the same number, at most 255000.
-/
import proofs.«208062_g8211977470007_cont_9to1c4b_635_8_alg».proof.Proof.Gen.Pre_input_domain
import Idealize.ShloMosaic.Lib.ReduceAll
import Idealize.ShloMosaic.Lib.ValueIdx

namespace Cert.Proof.PreRange

open Idealize.ShloMosaic Cert.Pre_input_domain Cert.Pre_input_domain.Gen

instance : Subsingleton S_.Idx := ⟨fun a b => funext fun d => d.elim0⟩

/-- A word that is at least 0 and at most 255000, both read signed, is at most 255000 read unsigned. -/
theorem word_le (v : BitVec 32) (e : IntOp.andi (IntOp.cmpi .sge v 0#32) (IntOp.cmpi .sle v 255000#32) = 1#1) : v.toNat ≤ 255000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- From the precondition at any float instance: every word of the list is at most 255000. -/
theorem ord_le {F : FTy → Type} [FloatOps F] (x : FVec F S1000000x128 .f32) (o : IVec S256 32)
    (h : Cert.Pre_input_domain.fn (F := F) x o = fun _ => 1#1) : ∀ j, (o j).toNat ≤ 255000 := by
  have h0 := congrFun h ValueIdx.ix0
  dsimp only [Cert.Pre_input_domain.fn] at h0
  have hb := (IntOp.andi_eq_one.1 h0).2
  have hall := Host.reduce_andi_all _ _ _ _ _ hb
  intro j
  have e := hall j
  simp only [andi, cmpi, broadcastInDim, constantI] at e
  exact word_le _ e

end Cert.Proof.PreRange
-- ==== Proof.GatherSpec.lean ====
/-
  The function both programs compute: row `r` of the result is the table's row named by word `r` of the index
  list. A word is read as a row number by `rowOf`: its unsigned value, capped at the last row so that the
  function is total; on a word already below the row count the cap does nothing (`rowOf_val`).
-/
import Idealize.ShloMosaic.PureOps
import Idealize.ShloMosaic.Lib.ValueIdx

namespace Cert.Proof.GatherSpec

open Idealize.ShloMosaic Idealize.ShloMosaic.ValueIdx

abbrev TabS : Shape := ⟨2, ![1000000, 128]⟩
abbrev OrdS : Shape := ⟨1, ![256]⟩
abbrev OutS : Shape := ⟨2, ![256, 128]⟩

/-- The row a word names: its unsigned value, capped at the table's last row. -/
def rowOf (w : BitVec 32) : Fin 1000000 := ⟨min w.toNat 999999, by omega⟩

theorem rowOf_val {w : BitVec 32} (h : w.toNat < 1000000) : (rowOf w).val = w.toNat := by
  show min w.toNat 999999 = w.toNat
  omega

/-- Row `r`, column `c` of the result: the table at row `rowOf (ord r)`, column `c`. -/
def takeRows {α : Type} (tab : TabS.Idx → α) (ord : OrdS.Idx → BitVec 32) : OutS.Idx → α :=
  fun j => tab (ix2 (rowOf (ord (ix1 (show Fin 256 from j 0)))) (show Fin 128 from j 1))

theorem takeRows_apply {α : Type} (tab : TabS.Idx → α) (ord : OrdS.Idx → BitVec 32) (r : Fin 256) (c : Fin 128) :
    takeRows tab ord (ix2 r c) = tab (ix2 (rowOf (ord (ix1 r))) c) := rfl

end Cert.Proof.GatherSpec
-- ==== Proof.KernelRun.lean ====
/-
  One task of the gather, on one vector subcore of device `d`: it fetches its sixteen words of the index list into
  its index scratch, streams the sixteen table rows those words name into its row scratch, and copies the row
  scratch to its sixteen rows of the result. Stated for any float instance: from its sixteen words of the list, a
  share of the whole table and its sixteen result rows, the task ends with the list and the table as they were and
  its result rows at `takeRows` of the table and the list — row `16·t + k` of the result is the table's row named
  by word `16·t + k` of the list.
-/
import proofs.«208062_g8211977470007_cont_9to1c4b_635_8_alg».proof.Defs
import proofs.«208062_g8211977470007_cont_9to1c4b_635_8_alg».proof.Proof.GatherSpec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«208062_g8211977470007_cont_9to1c4b_635_8_alg».proof.Proof.Gen.Kernel
import proofs.«208062_g8211977470007_cont_9to1c4b_635_8_alg».proof.Proof.Gen.Kernel.Skeleton

noncomputable section

namespace Cert.Proof.KernelRun

open Cert.Kernel Cert.Kernel.Gen
open Cert.Proof.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1 eq_ix2)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The table, the index list and the result, as locations of device `d`. -/
abbrev tLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

local notation "tV" => (Memref.whole Cert.Kernel.main_arg0_scv : Memref Cert.Kernel.sig Kind.scVector Space.hbm Cert.Kernel.S1000000x128 EltTy.f32)
local notation "iV" => (Memref.whole Cert.Kernel.main_arg1_scv : Memref Cert.Kernel.sig Kind.scVector Space.hbm Cert.Kernel.S256 EltTy.i32)
local notation "oV" => (Memref.whole Cert.Kernel.main_v0_scv : Memref Cert.Kernel.sig Kind.scVector Space.hbm Cert.Kernel.S256x128 EltTy.f32)
local notation "sV" => (Memref.whole Cert.Kernel.cc0_scratch0 : Memref Cert.Kernel.sig Kind.scVector Space.vmem Cert.Kernel.S16 EltTy.i32)
local notation "rV" => (Memref.whole Cert.Kernel.cc0_scratch1 : Memref Cert.Kernel.sig Kind.scVector Space.vmem Cert.Kernel.S16x128 EltTy.f32)

/-- The result the program leaves on device `d`: `takeRows` of the table and the list as launched. -/
def outOf (d : Dev nD) : Buf (Elt F) (oLoc d) := takeRows (m (tLoc d)) (m (iLoc d))

theorem idiv : 16 ∣ S256.size 0 := ⟨16, rfl⟩
theorem odiv : 16 ∣ S256x128.size 0 := ⟨16, rfl⟩
/-- The sixteen words of the list, and the sixteen rows of the result, that belong to task `i`. -/
abbrev irow (i : Fin 16) : Rect S256 := Rect.part (s := S256) (a₀ := 0) idiv i
abbrev orow (i : Fin 16) : Rect S256x128 := Rect.part (s := S256x128) (a₀ := 0) odiv i
abbrev iRowSet (i : Fin 16) : Finset S256.Idx := ((iV).view.slice (irow i)).set
abbrev oRowSet (i : Fin 16) : Finset S256x128.Idx := ((oV).view.slice (orow i)).set

/-- Task `i`'s share of the table: the full share cut into sixteen pieces. -/
abbrev tq (i : Fin 16) : PosShare TreeShare := pieceOf fullShare 16 (by decide) i

variable [FloatOps F]

/-! ## What the handshakes carry -/

abbrev tPts (d : Dev nD) : sProp 𝕄 := tLoc d ↦{fullShare} m (tLoc d)
abbrev iPts (d : Dev nD) : sProp 𝕄 := iLoc d ↦{fullShare} m (iLoc d)
abbrev oPts (d : Dev nD) (f : Buf (Elt F) (oLoc d)) : sProp 𝕄 := oLoc d ↦{fullShare} f
abbrev tShPts (d : Dev nD) (i : Fin 16) : sProp 𝕄 := tLoc d ↦{tq i} m (tLoc d)
abbrev iRowPts (d : Dev nD) (i : Fin 16) : sProp 𝕄 := iLoc d ↦[iRowSet i]{fullShare} m (iLoc d)
abbrev oRowPts (d : Dev nD) (i : Fin 16) (f : Buf (Elt F) (oLoc d)) : sProp 𝕄 := oLoc d ↦[oRowSet i]{fullShare} f

/-- The one call takes the table, the list and the result whole; each task a share of the table, its words of the
    list and its rows of the result, and brings them back, the rows at `outOf`. -/
def P : (K (F := F)).Pay (nD := nD) (Val := Elt F) (Name := ℕ) (U := UU) where
  st := fun q d _ => match q with | 0 => iprop(tPts m d ∗ iPts m d ∗ oPts d (m (oLoc d)))
  dn := fun q d _ => match q with | 0 => iprop(tPts m d ∗ iPts m d ∗ oPts d (outOf m d))
  go := fun q d _ i => match q with
    | 0 => iprop(tShPts m d (Fin.cast nSub_zero i) ∗ iRowPts m d (Fin.cast nSub_zero i) ∗ oRowPts d (Fin.cast nSub_zero i) (m (oLoc d)))
  td := fun q d _ i => match q with
    | 0 => iprop(tShPts m d (Fin.cast nSub_zero i) ∗ iRowPts m d (Fin.cast nSub_zero i) ∗ oRowPts d (Fin.cast nSub_zero i) (outOf m d))
  x := fun _ _ => iprop(emp)

instance P_storable : (P (F := F) m).IsStorable where
  st q d _ := match q with
    | 0 => (inferInstance : BI.Storable (upEmb : UEmb _ 𝕄) iprop(tPts m d ∗ iPts m d ∗ oPts d (m (oLoc d))))
  dn q d _ := match q with
    | 0 => (inferInstance : BI.Storable (upEmb : UEmb _ 𝕄) iprop(tPts m d ∗ iPts m d ∗ oPts d (outOf m d)))
  go q d _ i := match q with
    | 0 => (inferInstance : BI.Storable (upEmb : UEmb _ 𝕄)
      iprop(tShPts m d (Fin.cast nSub_zero i) ∗ iRowPts m d (Fin.cast nSub_zero i) ∗ oRowPts d (Fin.cast nSub_zero i) (m (oLoc d))))
  td q d _ i := match q with
    | 0 => (inferInstance : BI.Storable (upEmb : UEmb _ 𝕄)
      iprop(tShPts m d (Fin.cast nSub_zero i) ∗ iRowPts m d (Fin.cast nSub_zero i) ∗ oRowPts d (Fin.cast nSub_zero i) (outOf m d)))

/-- What the proof asks of the launch memory: every word of the list names a row of the table. -/
def PreOK : Prop := ∀ (d : Dev nD) (j : S256.Idx), (m (iLoc d) j).toNat < 1000000

/-! ## The task's geometry -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)
omit [FloatOps F] in
theorem L0_val : (L 0).val = 0 := by
  have h : (L 0).val < 1 := (L 0).isLt
  omega

abbrev irowK (L : grid0.Coords) : Rect S256 := Rect.unit (s := S256) (k0_off1 L) S16.size (k0_off1_inb L)
abbrev orowK (L : grid0.Coords) : Rect S256x128 := Rect.unit (s := S256x128) (k0_off2 L) S16x128.size (k0_off2_inb L)
/-- The task's words of the list and rows of the result, and the whole table, as the task addresses them. -/
abbrev iRowK (L : grid0.Coords) : Memref sig .scVector .hbm S16 .i32 := (iV).slice (irowK L) (fun _ => rfl)
abbrev oRowK (L : grid0.Coords) : Memref sig .scVector .hbm S16x128 .f32 := (oV).slice (orowK L) (fun _ => rfl)
abbrev tAllK : Memref sig .scVector .hbm S1000000x128 .f32 := (tV).slice (Rect.unit (s := S1000000x128) ![0, 0] S1000000x128.size inb_S1000000x128_S1000000x128_0_0) (fun _ => rfl)

omit [FloatOps F] in
theorem irowK_eq : irowK L = irow (jL L) := by
  unfold irowK irow Rect.part Rect.block
  congr 1 <;> funext a
  · rw [k0_off1_eq]
    match a with
    | 0 => simp [Shape.partIx, Shape.partSize, L0_val L, Nat.mul_comm]
  · match a with
    | 0 => simp [Shape.partSize]
omit [FloatOps F] in
theorem orowK_eq : orowK L = orow (jL L) := by
  unfold orowK orow Rect.part Rect.block
  congr 1 <;> funext a
  · rw [k0_off2_eq]
    match a with
    | 0 => simp [Shape.partIx, Shape.partSize, L0_val L, Nat.mul_comm]
    | 1 => simp [Shape.partIx, Shape.partSize]
  · match a with
    | 0 => simp [Shape.partSize]
    | 1 => simp [Shape.partSize]

omit [FloatOps F] in
theorem set_iRowK : (iRowK L).view.set = iRowSet (jL L) := by
  show ((iV).view.slice (irowK L)).set = ((iV).view.slice (irow (jL L))).set
  rw [irowK_eq]
omit [FloatOps F] in
theorem set_oRowK : (oRowK L).view.set = oRowSet (jL L) := by
  show ((oV).view.slice (orowK L)).set = ((oV).view.slice (orow (jL L))).set
  rw [orowK_eq]

omit [FloatOps F] in
theorem pts_iRowK (f : Buf (Elt F) (iLoc d)) :
    ((iRowK L).view.loc (V d (cV L) (jV L)) ↦[(iRowK L).view.set]{fullShare} f : sProp 𝕄) = iLoc d ↦[iRowSet (jL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (jL L)]{fullShare} f := by
  rw [set_oRowK]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The task's three DMA semaphores: the gather's, the list fetch's, the write-out's. -/
abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Every word the list fetch lands in the index scratch names a row of the table: the scratch then holds the
    task's sixteen words of the list, and every word of the list does (`PreOK`). -/
theorem list_in_range (hpre : PreOK m) (fs : Buf (Elt F) ((V d (cV L) (jV L)).loc cc0_scratch0)) (pay : S16.Idx → Elt F .i32)
    (hpay : pay = (iRowK L).view.read (Elt F) (m (iLoc d))) :
    ∀ x, ((sV).view.read (Elt F) (View.write (Elt F) (sV).view fs pay Finset.univ) x).toNat
      < S1000000x128.size gathers_S1000000x128_S16x128.axis := by
  subst hpay
  intro x
  have hw : View.write (Elt F) (sV).view fs ((iRowK L).view.read (Elt F) (m (iLoc d))) Finset.univ
      = (iRowK L).view.read (Elt F) (m (iLoc d)) := View.write_whole_univ _ _ _
  rw [hw]
  simp only [Memref.view_whole, View.read_whole]
  have hr : (iRowK L).view.read (Elt F) (m (iLoc d)) x = m (iLoc d) ((iRowK L).view.emb x) := (View.read_apply _ _).trans (cast_eq _ _)
  rw [hr]
  exact hpre d _

/-- Word (or row) `k` of task `L 1`'s sixteen is word (row) `16·(L 1) + k` of the whole. -/
def rowNo (L : grid0.Coords) (k : Fin 16) : Fin 256 := ⟨16 * (jL L).val + k.val, by have := (jL L).isLt; have := k.isLt; omega⟩

omit [FloatOps F] in
theorem iRowK_emb (k : Fin 16) : (iRowK L).view.emb (ix1 k) = (ix1 (rowNo L k) : S256.Idx) := by
  funext a
  match a with
  | ⟨0, _⟩ =>
    apply Fin.ext
    show (k0_off1 L) 0 + 1 * k.val = _
    rw [k0_off1_eq]
    simp [L0_val L, rowNo]

omit [FloatOps F] in
theorem oRowK_emb (k : Fin 16) (c : Fin 128) : (oRowK L).view.emb (ix2 k c) = (ix2 (rowNo L k) c : S256x128.Idx) := by
  funext a
  match a with
  | ⟨0, _⟩ =>
    apply Fin.ext
    show (k0_off2 L) 0 + 1 * k.val = _
    rw [k0_off2_eq]
    simp [L0_val L, rowNo]
  | ⟨1, _⟩ =>
    apply Fin.ext
    show (k0_off2 L) 1 + 1 * c.val = _
    rw [k0_off2_eq]
    simp

omit [FloatOps F] in
theorem tAllK_emb (y : S1000000x128.Idx) : (tAllK).view.emb y = y := by
  funext a
  match a with
  | ⟨0, _⟩ => apply Fin.ext; show 0 + 1 * (y _).val = (y _).val; rw [Nat.zero_add, Nat.one_mul]
  | ⟨1, _⟩ => apply Fin.ext; show 0 + 1 * (y _).val = (y _).val; rw [Nat.zero_add, Nat.one_mul]

omit [FloatOps F] in
/-- An array written whole through one of its views reads, through that view, what was written. -/
theorem read_writes_whole {sig' : RefSig} {κ : Kind} {sp : Space} {s : Shape} {e : EltTy} {Val : EltTy → Type}
    (v : View sig' κ sp s e) (f : v.ty.Contents Val) (w : (Rect.whole s).shape.Idx → Val e) (x : (Rect.whole s).shape.Idx) :
    v.read Val (v.writes Val f [⟨Rect.whole s, w⟩]) x = w x := by
  have h := View.read_writes_cons_emb v f (Rect.whole s) w [] x
  rw [Rect.emb_whole_apply] at h
  exact h

omit [FloatOps F] in
/-- Entry `k` of a sixteen-word list, counted in row-major order, is its word `k`. -/
theorem rowMajor_symm_S16 (k : Fin 16) (n : Fin S16.numel) (hn : n.val = k.val) : S16.rowMajor.symm n = (ix1 k : S16.Idx) := by
  rw [Equiv.symm_apply_eq]
  apply Fin.ext
  rw [Shape.rowMajor_val_one]
  exact hn

/-- What the task leaves in its sixteen rows of the result is `outOf` there: row `k` of the row scratch was
    gathered from the table's row named by word `k` of the index scratch, which is word `16·t + k` of the list. -/
theorem rows_value (hpre : PreOK m) (fs : Buf (Elt F) ((V d (cV L) (jV L)).loc cc0_scratch0)) (fr : Buf (Elt F) ((V d (cV L) (jV L)).loc cc0_scratch1))
    (fo : Buf (Elt F) (oLoc d)) (hn : S16.numel = S16x128.size gathers_S1000000x128_S16x128.axis')
    (hin : ∀ x, ((sV).view.read (Elt F) (View.write (Elt F) (sV).view fs ((iRowK L).view.read (Elt F) (m (iLoc d))) Finset.univ) x).toNat
      < S1000000x128.size gathers_S1000000x128_S16x128.axis)
    (pay : S16x128.Idx → Elt F .f32)
    (hpay : pay = (rV).view.read (Elt F) ((rV).view.writes (Elt F) fr
        [⟨Rect.whole S16x128, SparseCore.gatherPayload gathers_S1000000x128_S16x128 ((tAllK).view.read (Elt F) (m (tLoc d)))
          (SparseCore.rows ((sV).view.read (Elt F) (View.write (Elt F) (sV).view fs ((iRowK L).view.read (Elt F) (m (iLoc d))) Finset.univ)) hn hin)⟩])) :
    ∀ i ∈ (oRowK L).view.set, (oRowK L).view.writes (Elt F) fo [⟨Rect.whole S16x128, pay⟩] i = outOf m d i := by
  subst hpay
  intro i hi
  obtain ⟨x, -, rfl⟩ := Finset.mem_map.mp hi
  obtain ⟨k, c, rfl⟩ : ∃ (k : Fin 16) (c : Fin 128), x = ix2 k c := ⟨x 0, x 1, eq_ix2 x⟩
  -- the element under the one write reads the payload
  refine ((View.read_apply (v := (oRowK L).view) _ (ix2 k c)).trans (cast_eq _ _)).symm.trans ?_
  refine (read_writes_whole (oRowK L).view fo _ (ix2 k c)).trans ?_
  -- the row scratch, written whole with the gather's payload, reads that payload
  refine (read_writes_whole (rV).view fr _ (ix2 k c)).trans ?_
  simp only [Memref.view_whole, View.read_whole]
  unfold SparseCore.gatherPayload
  refine ((View.read_apply (v := (tAllK).view) (m (tLoc d)) _).trans (cast_eq _ _)).trans ?_
  rw [tAllK_emb, oRowK_emb]
  unfold outOf
  rw [takeRows_apply]
  congr 1
  funext a
  match a with
  | ⟨0, _⟩ =>
    apply Fin.ext
    refine (congrArg Fin.val (Shape.Gathers.idx_axis gathers_S1000000x128_S16x128 _ (ix2 k c))).trans ?_
    have e : S16.rowMajor.symm ((k : Fin (S16x128.size gathers_S1000000x128_S16x128.axis')).cast hn.symm) = (ix1 k : S16.Idx) :=
      rowMajor_symm_S16 k _ rfl
    have hwv : View.write (Elt F) (View.whole cc0_scratch0) fs
          (View.read (Elt F) ((View.whole main_arg1_scv).slice (irowK L)) (m (iLoc d))) Finset.univ
        = View.read (Elt F) ((View.whole main_arg1_scv).slice (irowK L)) (m (iLoc d)) := View.write_whole_univ _ _ _
    have hr : View.read (Elt F) ((View.whole main_arg1_scv).slice (irowK L)) (m (iLoc d)) (ix1 k) = m (iLoc d) ((iRowK L).view.emb (ix1 k)) :=
      (View.read_apply (v := (iRowK L).view) _ _).trans (cast_eq _ _)
    refine (congrArg (fun j => (View.write (Elt F) (View.whole cc0_scratch0) fs
          (View.read (Elt F) ((View.whole main_arg1_scv).slice (irowK L)) (m (iLoc d))) Finset.univ j).toNat) e).trans ?_
    show (View.write (Elt F) (View.whole cc0_scratch0) fs
          (View.read (Elt F) ((View.whole main_arg1_scv).slice (irowK L)) (m (iLoc d))) Finset.univ (ix1 k)).toNat = _
    rw [hwv, hr, iRowK_emb]
    exact (rowOf_val (hpre d _)).symm
  | ⟨1, _⟩ =>
    apply Fin.ext
    exact Shape.Gathers.idx_of_ne gathers_S1000000x128_S16x128 _ (ix2 k c) ⟨1, by decide⟩ (by decide)

set_option maxHeartbeats 4000000 in
/-- The task on vector subcore `(L 0, L 1)` of device `d`: from a share of the table, its sixteen words of the list
    and its sixteen rows of the result, it ends with the table and the list as they were and its rows of the result
    at `outOf`; its scratch buffers and semaphores come back, the semaphores at zero. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (tShPts m d (jL L) ∗ iRowPts m d (jL L) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather L tV (Memref.isWhole_whole _) iV (Memref.isWhole_whole _) oV (Memref.isWhole_whole _)
            sV (Memref.isWhole_whole _) rV (Memref.isWhole_whole _) cc0_scratch2 cc0_scoped0 cc0_scoped1)
          fun _ => iprop((tShPts m d (jL L) ∗ iRowPts m d (jL L) ∗ oRowPts d (jL L) (outOf m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_eq_skeleton]; unfold cc0__gather_skel
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  -- every word the list fetch lands names a row of the table, whatever the index scratch held before
  have hin := fun (fs' : Buf (Elt F) ((V d (cV L) (jV L)).loc cc0_scratch0)) => list_in_range m d L hpre fs' _ rfl
  -- the fetch and its wait, the gather and its wait, the write-out and its wait
  sl_exec
  sl_step
  ihave Ho2 := (Entails.of_eq (pointsTo_congr (rows_value m d L hpre fs fr (m (oLoc d)) _ (hin fs) _ rfl))) $$ Ho'
  isplitl [Ht' Hi' Ho2]
  · isplitl [Ht']; · iapply (Entails.of_eq (pts_tV (F := F) d L _ _)); iexact Ht'
    isplitl [Hi']; · iapply (Entails.of_eq (pts_iRowK (F := F) d L _)); iexact Hi'
    iapply (Entails.of_eq (pts_oRowK (F := F) d L _)); iexact Ho2
  isplitl [Hs' Hr' Hbufs]
  · isplitl [Hs']; · iexists _; iexact Hs'
    isplitl [Hr']; · iexists _; iexact Hr'
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The launch theorem's obligation for the one call -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The list's words and the result's rows split among the tasks and join; the shares of the table -/

omit [FloatOps F] in
theorem iRowSet_eq (i : Fin 16) : iRowSet i = (irow i).set := by
  show ((View.whole (main_arg1_scv : Ref sig .scVector)).slice (irow i)).set = _
  rw [View.set_slice]; exact Finset.map_refl
omit [FloatOps F] in
theorem oRowSet_eq (i : Fin 16) : oRowSet i = (orow i).set := by
  show ((View.whole (main_v0_scv : Ref sig .scVector)).slice (orow i)).set = _
  rw [View.set_slice]; exact Finset.map_refl
omit [FloatOps F] in
theorem irows_disjoint : ∀ i ∈ (Finset.univ : Finset (Fin 16)), ∀ j ∈ (Finset.univ : Finset (Fin 16)), i ≠ j → Disjoint (iRowSet i) (iRowSet j) :=
  fun i _ j _ h => by rw [iRowSet_eq, iRowSet_eq]; exact Rect.part_disjoint idiv h
omit [FloatOps F] in
theorem orows_disjoint : ∀ i ∈ (Finset.univ : Finset (Fin 16)), ∀ j ∈ (Finset.univ : Finset (Fin 16)), i ≠ j → Disjoint (oRowSet i) (oRowSet j) :=
  fun i _ j _ h => by rw [oRowSet_eq, oRowSet_eq]; exact Rect.part_disjoint odiv h
omit [FloatOps F] in
theorem irows_cover : (Finset.univ : Finset (Fin 16)).biUnion iRowSet = Finset.univ :=
  (Finset.biUnion_congr rfl fun i _ => iRowSet_eq i).trans (Rect.biUnion_part idiv)
omit [FloatOps F] in
theorem orows_cover : (Finset.univ : Finset (Fin 16)).biUnion oRowSet = Finset.univ :=
  (Finset.biUnion_congr rfl fun i _ => oRowSet_eq i).trans (Rect.biUnion_part odiv)

omit [FloatOps F] in
theorem iPts_rows (d : Dev nD) (f : Buf (Elt F) (iLoc d)) :
    (iLoc d ↦{fullShare} f : sProp 𝕄) = bigSep Finset.univ fun i : Fin 16 => iLoc d ↦[iRowSet i]{fullShare} f := by
  rw [← pointsTo_biUnion Finset.univ (ℓ := iLoc d) iRowSet irows_disjoint, irows_cover]; try rfl
omit [FloatOps F] in
theorem oPts_rows (d : Dev nD) (f : Buf (Elt F) (oLoc d)) :
    (oLoc d ↦{fullShare} f : sProp 𝕄) = bigSep Finset.univ fun i : Fin 16 => oLoc d ↦[oRowSet i]{fullShare} f := by
  rw [← pointsTo_biUnion Finset.univ (ℓ := oLoc d) oRowSet orows_disjoint, orows_cover]; try rfl
omit [FloatOps F] in
theorem tPts_shares (d : Dev nD) (f : Buf (Elt F) (tLoc d)) :
    (tLoc d ↦{fullShare} f : sProp 𝕄) = bigSep Finset.univ fun i : Fin 16 => tLoc d ↦{tq i} f :=
  pointsTo_piecesOf Finset.univ f (by decide) fullShare

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(tPts m d ∗ iPts m d ∗ oPts d (m (oLoc d))) ⊢ |={Set.univ}=> iprop(
      (bigSep Finset.univ fun i : Fin ((K (F := F)).nSub 0) =>
        iprop(tShPts m d (Fin.cast nSub_zero i) ∗ iRowPts m d (Fin.cast nSub_zero i) ∗ oRowPts d (Fin.cast nSub_zero i) (m (oLoc d))))
      ∗ ((bigSep Finset.univ fun i : Fin ((K (F := F)).nSub 0) =>
          iprop(tShPts m d (Fin.cast nSub_zero i) ∗ iRowPts m d (Fin.cast nSub_zero i) ∗ oRowPts d (Fin.cast nSub_zero i) (outOf m d)))
          -∗ iprop(tPts m d ∗ iPts m d ∗ oPts d (outOf m d))))
  rw [bigSep_tasks (F := F) (fun i => iprop(tShPts m d i ∗ iRowPts m d i ∗ oRowPts d i (m (oLoc d)))),
    bigSep_tasks (F := F) (fun i => iprop(tShPts m d i ∗ iRowPts m d i ∗ oRowPts d i (outOf m d))), bigSep_sep', bigSep_sep', bigSep_sep', bigSep_sep']
  unfold tPts iPts oPts tShPts iRowPts oRowPts
  rw [tPts_shares, iPts_rows, oPts_rows, oPts_rows]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((tLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c) = iprop(tPts m d ∗ iPts m d ∗ oPts d (m (oLoc d))) :=
  bigSep_univ_of_subsingleton (0 : Fin 1)
theorem dn0_eq (d : Dev nD) : (bigSep Finset.univ fun c : Fin ((K (F := F)).nCore 0) => (P m).dn 0 d c) = iprop(tPts m d ∗ iPts m d ∗ oPts d (outOf m d)) :=
  bigSep_univ_of_subsingleton (0 : Fin 1)

/-- What @main leaves the claim: the table and the list as launched, the result at `outOf`. -/
abbrev FIN (d : Dev nD) : sProp 𝕄 := iprop(tPts m d ∗ iPts m d ∗ oPts d (outOf m d))

/-- @main on device `d`'s TensorCore: the one call, from the table, the list and the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ht, Hi, Ho⟩, -, -⟩, -⟩
  iapply ((K (F := F)).wp_run (D (F := F)) 𝒱 (EH := EH) (P := P m) κ d 0) $$ [Hst Ht Hi Ho]
  isplitr; · iexact Hctx
  isplitl [Hst]; · iexact Hst
  isplitl [Ht Hi Ho]
  · rw [st0_eq]
    isplitl [Ht]; · iexact Ht
    isplitl [Hi]; · iexact Hi
    iexact Ho
  iintro ⟨Hst, Hdn⟩
  ihave Hdn' := (Entails.of_eq (dn0_eq m d)) $$ Hdn
  icases Hdn' with ⟨Ht, Hi, Ho⟩
  imodintro
  isplitl [Hst]; · iexact Hst
  isplitl [Ht]; · iexact Ht
  isplitl [Hi]; · iexact Hi
  iexact Ho

def fq (d : Dev nD) (s' : Phys nD τ sig (Elt F)) : Prop :=
  s'.mem.mem (oLoc d) = outOf m d ∧ s'.mem.mem (tLoc d) = m (tLoc d) ∧ s'.mem.mem (iLoc d) = m (iLoc d)

set_option maxRecDepth 16384 in
theorem hfin (d : Dev nD) (s' : Phys nD τ sig (Elt F)) : iprop(FIN m d ∗ SI s') ⊢ (⌜fq m d s'⌝ : sProp 𝕄) := by
  iintro ⟨⟨Ht, Hi, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := outOf m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = outOf m c ∧ r.2.mem (tLoc c) = m (tLoc c) ∧ r.2.mem (iLoc c) = m (iLoc c)

/-- Every weakly fair execution of the device's threads terminates, nothing faulting, with the result at
    `takeRows` of the table and the list and both of those unchanged, provided every word of the list names a row. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelRun

end
-- ==== Proof.KernelIdealRun.lean ====
/-
  One task of the gather, on one vector subcore of device `d`: it fetches its sixteen words of the index list into
  its index scratch, streams the sixteen table rows those words name into its row scratch, and copies the row
  scratch to its sixteen rows of the result. Stated for any float instance: from its sixteen words of the list, a
  share of the whole table and its sixteen result rows, the task ends with the list and the table as they were and
  its result rows at `takeRows` of the table and the list — row `16·t + k` of the result is the table's row named
  by word `16·t + k` of the list.
-/
import proofs.«208062_g8211977470007_cont_9to1c4b_635_8_alg».proof.Defs
import proofs.«208062_g8211977470007_cont_9to1c4b_635_8_alg».proof.Proof.GatherSpec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«208062_g8211977470007_cont_9to1c4b_635_8_alg».proof.Proof.Gen.KernelIdeal
import proofs.«208062_g8211977470007_cont_9to1c4b_635_8_alg».proof.Proof.Gen.KernelIdeal.Skeleton

noncomputable section

namespace Cert.Proof.KernelIdealRun

open Cert.KernelIdeal Cert.KernelIdeal.Gen
open Cert.Proof.GatherSpec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1 eq_ix2)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The table, the index list and the result, as locations of device `d`. -/
abbrev tLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

local notation "tV" => (Memref.whole Cert.KernelIdeal.main_arg0_scv : Memref Cert.KernelIdeal.sig Kind.scVector Space.hbm Cert.KernelIdeal.S1000000x128 EltTy.f32)
local notation "iV" => (Memref.whole Cert.KernelIdeal.main_arg1_scv : Memref Cert.KernelIdeal.sig Kind.scVector Space.hbm Cert.KernelIdeal.S256 EltTy.i32)
local notation "oV" => (Memref.whole Cert.KernelIdeal.main_v0_scv : Memref Cert.KernelIdeal.sig Kind.scVector Space.hbm Cert.KernelIdeal.S256x128 EltTy.f32)
local notation "sV" => (Memref.whole Cert.KernelIdeal.cc0_scratch0 : Memref Cert.KernelIdeal.sig Kind.scVector Space.vmem Cert.KernelIdeal.S16 EltTy.i32)
local notation "rV" => (Memref.whole Cert.KernelIdeal.cc0_scratch1 : Memref Cert.KernelIdeal.sig Kind.scVector Space.vmem Cert.KernelIdeal.S16x128 EltTy.f32)

/-- The result the program leaves on device `d`: `takeRows` of the table and the list as launched. -/
def outOf (d : Dev nD) : Buf (Elt F) (oLoc d) := takeRows (m (tLoc d)) (m (iLoc d))

theorem idiv : 16 ∣ S256.size 0 := ⟨16, rfl⟩
theorem odiv : 16 ∣ S256x128.size 0 := ⟨16, rfl⟩
/-- The sixteen words of the list, and the sixteen rows of the result, that belong to task `i`. -/
abbrev irow (i : Fin 16) : Rect S256 := Rect.part (s := S256) (a₀ := 0) idiv i
abbrev orow (i : Fin 16) : Rect S256x128 := Rect.part (s := S256x128) (a₀ := 0) odiv i
abbrev iRowSet (i : Fin 16) : Finset S256.Idx := ((iV).view.slice (irow i)).set
abbrev oRowSet (i : Fin 16) : Finset S256x128.Idx := ((oV).view.slice (orow i)).set

/-- Task `i`'s share of the table: the full share cut into sixteen pieces. -/
abbrev tq (i : Fin 16) : PosShare TreeShare := pieceOf fullShare 16 (by decide) i

variable [FloatOps F]

/-! ## What the handshakes carry -/

abbrev tPts (d : Dev nD) : sProp 𝕄 := tLoc d ↦{fullShare} m (tLoc d)
abbrev iPts (d : Dev nD) : sProp 𝕄 := iLoc d ↦{fullShare} m (iLoc d)
abbrev oPts (d : Dev nD) (f : Buf (Elt F) (oLoc d)) : sProp 𝕄 := oLoc d ↦{fullShare} f
abbrev tShPts (d : Dev nD) (i : Fin 16) : sProp 𝕄 := tLoc d ↦{tq i} m (tLoc d)
abbrev iRowPts (d : Dev nD) (i : Fin 16) : sProp 𝕄 := iLoc d ↦[iRowSet i]{fullShare} m (iLoc d)
abbrev oRowPts (d : Dev nD) (i : Fin 16) (f : Buf (Elt F) (oLoc d)) : sProp 𝕄 := oLoc d ↦[oRowSet i]{fullShare} f

/-- The one call takes the table, the list and the result whole; each task a share of the table, its words of the
    list and its rows of the result, and brings them back, the rows at `outOf`. -/
def P : (K (F := F)).Pay (nD := nD) (Val := Elt F) (Name := ℕ) (U := UU) where
  st := fun q d _ => match q with | 0 => iprop(tPts m d ∗ iPts m d ∗ oPts d (m (oLoc d)))
  dn := fun q d _ => match q with | 0 => iprop(tPts m d ∗ iPts m d ∗ oPts d (outOf m d))
  go := fun q d _ i => match q with
    | 0 => iprop(tShPts m d (Fin.cast nSub_zero i) ∗ iRowPts m d (Fin.cast nSub_zero i) ∗ oRowPts d (Fin.cast nSub_zero i) (m (oLoc d)))
  td := fun q d _ i => match q with
    | 0 => iprop(tShPts m d (Fin.cast nSub_zero i) ∗ iRowPts m d (Fin.cast nSub_zero i) ∗ oRowPts d (Fin.cast nSub_zero i) (outOf m d))
  x := fun _ _ => iprop(emp)

instance P_storable : (P (F := F) m).IsStorable where
  st q d _ := match q with
    | 0 => (inferInstance : BI.Storable (upEmb : UEmb _ 𝕄) iprop(tPts m d ∗ iPts m d ∗ oPts d (m (oLoc d))))
  dn q d _ := match q with
    | 0 => (inferInstance : BI.Storable (upEmb : UEmb _ 𝕄) iprop(tPts m d ∗ iPts m d ∗ oPts d (outOf m d)))
  go q d _ i := match q with
    | 0 => (inferInstance : BI.Storable (upEmb : UEmb _ 𝕄)
      iprop(tShPts m d (Fin.cast nSub_zero i) ∗ iRowPts m d (Fin.cast nSub_zero i) ∗ oRowPts d (Fin.cast nSub_zero i) (m (oLoc d))))
  td q d _ i := match q with
    | 0 => (inferInstance : BI.Storable (upEmb : UEmb _ 𝕄)
      iprop(tShPts m d (Fin.cast nSub_zero i) ∗ iRowPts m d (Fin.cast nSub_zero i) ∗ oRowPts d (Fin.cast nSub_zero i) (outOf m d)))

/-- What the proof asks of the launch memory: every word of the list names a row of the table. -/
def PreOK : Prop := ∀ (d : Dev nD) (j : S256.Idx), (m (iLoc d) j).toNat < 1000000

/-! ## The task's geometry -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)
omit [FloatOps F] in
theorem L0_val : (L 0).val = 0 := by
  have h : (L 0).val < 1 := (L 0).isLt
  omega

abbrev irowK (L : grid0.Coords) : Rect S256 := Rect.unit (s := S256) (k0_off1 L) S16.size (k0_off1_inb L)
abbrev orowK (L : grid0.Coords) : Rect S256x128 := Rect.unit (s := S256x128) (k0_off2 L) S16x128.size (k0_off2_inb L)
/-- The task's words of the list and rows of the result, and the whole table, as the task addresses them. -/
abbrev iRowK (L : grid0.Coords) : Memref sig .scVector .hbm S16 .i32 := (iV).slice (irowK L) (fun _ => rfl)
abbrev oRowK (L : grid0.Coords) : Memref sig .scVector .hbm S16x128 .f32 := (oV).slice (orowK L) (fun _ => rfl)
abbrev tAllK : Memref sig .scVector .hbm S1000000x128 .f32 := (tV).slice (Rect.unit (s := S1000000x128) ![0, 0] S1000000x128.size inb_S1000000x128_S1000000x128_0_0) (fun _ => rfl)

omit [FloatOps F] in
theorem irowK_eq : irowK L = irow (jL L) := by
  unfold irowK irow Rect.part Rect.block
  congr 1 <;> funext a
  · rw [k0_off1_eq]
    match a with
    | 0 => simp [Shape.partIx, Shape.partSize, L0_val L, Nat.mul_comm]
  · match a with
    | 0 => simp [Shape.partSize]
omit [FloatOps F] in
theorem orowK_eq : orowK L = orow (jL L) := by
  unfold orowK orow Rect.part Rect.block
  congr 1 <;> funext a
  · rw [k0_off2_eq]
    match a with
    | 0 => simp [Shape.partIx, Shape.partSize, L0_val L, Nat.mul_comm]
    | 1 => simp [Shape.partIx, Shape.partSize]
  · match a with
    | 0 => simp [Shape.partSize]
    | 1 => simp [Shape.partSize]

omit [FloatOps F] in
theorem set_iRowK : (iRowK L).view.set = iRowSet (jL L) := by
  show ((iV).view.slice (irowK L)).set = ((iV).view.slice (irow (jL L))).set
  rw [irowK_eq]
omit [FloatOps F] in
theorem set_oRowK : (oRowK L).view.set = oRowSet (jL L) := by
  show ((oV).view.slice (orowK L)).set = ((oV).view.slice (orow (jL L))).set
  rw [orowK_eq]

omit [FloatOps F] in
theorem pts_iRowK (f : Buf (Elt F) (iLoc d)) :
    ((iRowK L).view.loc (V d (cV L) (jV L)) ↦[(iRowK L).view.set]{fullShare} f : sProp 𝕄) = iLoc d ↦[iRowSet (jL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (jL L)]{fullShare} f := by
  rw [set_oRowK]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The task's three DMA semaphores: the gather's, the list fetch's, the write-out's. -/
abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Every word the list fetch lands in the index scratch names a row of the table: the scratch then holds the
    task's sixteen words of the list, and every word of the list does (`PreOK`). -/
theorem list_in_range (hpre : PreOK m) (fs : Buf (Elt F) ((V d (cV L) (jV L)).loc cc0_scratch0)) (pay : S16.Idx → Elt F .i32)
    (hpay : pay = (iRowK L).view.read (Elt F) (m (iLoc d))) :
    ∀ x, ((sV).view.read (Elt F) (View.write (Elt F) (sV).view fs pay Finset.univ) x).toNat
      < S1000000x128.size gathers_S1000000x128_S16x128.axis := by
  subst hpay
  intro x
  have hw : View.write (Elt F) (sV).view fs ((iRowK L).view.read (Elt F) (m (iLoc d))) Finset.univ
      = (iRowK L).view.read (Elt F) (m (iLoc d)) := View.write_whole_univ _ _ _
  rw [hw]
  simp only [Memref.view_whole, View.read_whole]
  have hr : (iRowK L).view.read (Elt F) (m (iLoc d)) x = m (iLoc d) ((iRowK L).view.emb x) := (View.read_apply _ _).trans (cast_eq _ _)
  rw [hr]
  exact hpre d _

/-- Word (or row) `k` of task `L 1`'s sixteen is word (row) `16·(L 1) + k` of the whole. -/
def rowNo (L : grid0.Coords) (k : Fin 16) : Fin 256 := ⟨16 * (jL L).val + k.val, by have := (jL L).isLt; have := k.isLt; omega⟩

omit [FloatOps F] in
theorem iRowK_emb (k : Fin 16) : (iRowK L).view.emb (ix1 k) = (ix1 (rowNo L k) : S256.Idx) := by
  funext a
  match a with
  | ⟨0, _⟩ =>
    apply Fin.ext
    show (k0_off1 L) 0 + 1 * k.val = _
    rw [k0_off1_eq]
    simp [L0_val L, rowNo]

omit [FloatOps F] in
theorem oRowK_emb (k : Fin 16) (c : Fin 128) : (oRowK L).view.emb (ix2 k c) = (ix2 (rowNo L k) c : S256x128.Idx) := by
  funext a
  match a with
  | ⟨0, _⟩ =>
    apply Fin.ext
    show (k0_off2 L) 0 + 1 * k.val = _
    rw [k0_off2_eq]
    simp [L0_val L, rowNo]
  | ⟨1, _⟩ =>
    apply Fin.ext
    show (k0_off2 L) 1 + 1 * c.val = _
    rw [k0_off2_eq]
    simp

omit [FloatOps F] in
theorem tAllK_emb (y : S1000000x128.Idx) : (tAllK).view.emb y = y := by
  funext a
  match a with
  | ⟨0, _⟩ => apply Fin.ext; show 0 + 1 * (y _).val = (y _).val; rw [Nat.zero_add, Nat.one_mul]
  | ⟨1, _⟩ => apply Fin.ext; show 0 + 1 * (y _).val = (y _).val; rw [Nat.zero_add, Nat.one_mul]

omit [FloatOps F] in
/-- An array written whole through one of its views reads, through that view, what was written. -/
theorem read_writes_whole {sig' : RefSig} {κ : Kind} {sp : Space} {s : Shape} {e : EltTy} {Val : EltTy → Type}
    (v : View sig' κ sp s e) (f : v.ty.Contents Val) (w : (Rect.whole s).shape.Idx → Val e) (x : (Rect.whole s).shape.Idx) :
    v.read Val (v.writes Val f [⟨Rect.whole s, w⟩]) x = w x := by
  have h := View.read_writes_cons_emb v f (Rect.whole s) w [] x
  rw [Rect.emb_whole_apply] at h
  exact h

omit [FloatOps F] in
/-- Entry `k` of a sixteen-word list, counted in row-major order, is its word `k`. -/
theorem rowMajor_symm_S16 (k : Fin 16) (n : Fin S16.numel) (hn : n.val = k.val) : S16.rowMajor.symm n = (ix1 k : S16.Idx) := by
  rw [Equiv.symm_apply_eq]
  apply Fin.ext
  rw [Shape.rowMajor_val_one]
  exact hn

/-- What the task leaves in its sixteen rows of the result is `outOf` there: row `k` of the row scratch was
    gathered from the table's row named by word `k` of the index scratch, which is word `16·t + k` of the list. -/
theorem rows_value (hpre : PreOK m) (fs : Buf (Elt F) ((V d (cV L) (jV L)).loc cc0_scratch0)) (fr : Buf (Elt F) ((V d (cV L) (jV L)).loc cc0_scratch1))
    (fo : Buf (Elt F) (oLoc d)) (hn : S16.numel = S16x128.size gathers_S1000000x128_S16x128.axis')
    (hin : ∀ x, ((sV).view.read (Elt F) (View.write (Elt F) (sV).view fs ((iRowK L).view.read (Elt F) (m (iLoc d))) Finset.univ) x).toNat
      < S1000000x128.size gathers_S1000000x128_S16x128.axis)
    (pay : S16x128.Idx → Elt F .f32)
    (hpay : pay = (rV).view.read (Elt F) ((rV).view.writes (Elt F) fr
        [⟨Rect.whole S16x128, SparseCore.gatherPayload gathers_S1000000x128_S16x128 ((tAllK).view.read (Elt F) (m (tLoc d)))
          (SparseCore.rows ((sV).view.read (Elt F) (View.write (Elt F) (sV).view fs ((iRowK L).view.read (Elt F) (m (iLoc d))) Finset.univ)) hn hin)⟩])) :
    ∀ i ∈ (oRowK L).view.set, (oRowK L).view.writes (Elt F) fo [⟨Rect.whole S16x128, pay⟩] i = outOf m d i := by
  subst hpay
  intro i hi
  obtain ⟨x, -, rfl⟩ := Finset.mem_map.mp hi
  obtain ⟨k, c, rfl⟩ : ∃ (k : Fin 16) (c : Fin 128), x = ix2 k c := ⟨x 0, x 1, eq_ix2 x⟩
  -- the element under the one write reads the payload
  refine ((View.read_apply (v := (oRowK L).view) _ (ix2 k c)).trans (cast_eq _ _)).symm.trans ?_
  refine (read_writes_whole (oRowK L).view fo _ (ix2 k c)).trans ?_
  -- the row scratch, written whole with the gather's payload, reads that payload
  refine (read_writes_whole (rV).view fr _ (ix2 k c)).trans ?_
  simp only [Memref.view_whole, View.read_whole]
  unfold SparseCore.gatherPayload
  refine ((View.read_apply (v := (tAllK).view) (m (tLoc d)) _).trans (cast_eq _ _)).trans ?_
  rw [tAllK_emb, oRowK_emb]
  unfold outOf
  rw [takeRows_apply]
  congr 1
  funext a
  match a with
  | ⟨0, _⟩ =>
    apply Fin.ext
    refine (congrArg Fin.val (Shape.Gathers.idx_axis gathers_S1000000x128_S16x128 _ (ix2 k c))).trans ?_
    have e : S16.rowMajor.symm ((k : Fin (S16x128.size gathers_S1000000x128_S16x128.axis')).cast hn.symm) = (ix1 k : S16.Idx) :=
      rowMajor_symm_S16 k _ rfl
    have hwv : View.write (Elt F) (View.whole cc0_scratch0) fs
          (View.read (Elt F) ((View.whole main_arg1_scv).slice (irowK L)) (m (iLoc d))) Finset.univ
        = View.read (Elt F) ((View.whole main_arg1_scv).slice (irowK L)) (m (iLoc d)) := View.write_whole_univ _ _ _
    have hr : View.read (Elt F) ((View.whole main_arg1_scv).slice (irowK L)) (m (iLoc d)) (ix1 k) = m (iLoc d) ((iRowK L).view.emb (ix1 k)) :=
      (View.read_apply (v := (iRowK L).view) _ _).trans (cast_eq _ _)
    refine (congrArg (fun j => (View.write (Elt F) (View.whole cc0_scratch0) fs
          (View.read (Elt F) ((View.whole main_arg1_scv).slice (irowK L)) (m (iLoc d))) Finset.univ j).toNat) e).trans ?_
    show (View.write (Elt F) (View.whole cc0_scratch0) fs
          (View.read (Elt F) ((View.whole main_arg1_scv).slice (irowK L)) (m (iLoc d))) Finset.univ (ix1 k)).toNat = _
    rw [hwv, hr, iRowK_emb]
    exact (rowOf_val (hpre d _)).symm
  | ⟨1, _⟩ =>
    apply Fin.ext
    exact Shape.Gathers.idx_of_ne gathers_S1000000x128_S16x128 _ (ix2 k c) ⟨1, by decide⟩ (by decide)

set_option maxHeartbeats 4000000 in
/-- The task on vector subcore `(L 0, L 1)` of device `d`: from a share of the table, its sixteen words of the list
    and its sixteen rows of the result, it ends with the table and the list as they were and its rows of the result
    at `outOf`; its scratch buffers and semaphores come back, the semaphores at zero. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (tShPts m d (jL L) ∗ iRowPts m d (jL L) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather L tV (Memref.isWhole_whole _) iV (Memref.isWhole_whole _) oV (Memref.isWhole_whole _)
            sV (Memref.isWhole_whole _) rV (Memref.isWhole_whole _) cc0_scratch2 cc0_scoped0 cc0_scoped1)
          fun _ => iprop((tShPts m d (jL L) ∗ iRowPts m d (jL L) ∗ oRowPts d (jL L) (outOf m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_eq_skeleton]; unfold cc0__gather_skel
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  -- every word the list fetch lands names a row of the table, whatever the index scratch held before
  have hin := fun (fs' : Buf (Elt F) ((V d (cV L) (jV L)).loc cc0_scratch0)) => list_in_range m d L hpre fs' _ rfl
  -- the fetch and its wait, the gather and its wait, the write-out and its wait
  sl_exec
  sl_step
  ihave Ho2 := (Entails.of_eq (pointsTo_congr (rows_value m d L hpre fs fr (m (oLoc d)) _ (hin fs) _ rfl))) $$ Ho'
  isplitl [Ht' Hi' Ho2]
  · isplitl [Ht']; · iapply (Entails.of_eq (pts_tV (F := F) d L _ _)); iexact Ht'
    isplitl [Hi']; · iapply (Entails.of_eq (pts_iRowK (F := F) d L _)); iexact Hi'
    iapply (Entails.of_eq (pts_oRowK (F := F) d L _)); iexact Ho2
  isplitl [Hs' Hr' Hbufs]
  · isplitl [Hs']; · iexists _; iexact Hs'
    isplitl [Hr']; · iexists _; iexact Hr'
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The launch theorem's obligation for the one call -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The list's words and the result's rows split among the tasks and join; the shares of the table -/

omit [FloatOps F] in
theorem iRowSet_eq (i : Fin 16) : iRowSet i = (irow i).set := by
  show ((View.whole (main_arg1_scv : Ref sig .scVector)).slice (irow i)).set = _
  rw [View.set_slice]; exact Finset.map_refl
omit [FloatOps F] in
theorem oRowSet_eq (i : Fin 16) : oRowSet i = (orow i).set := by
  show ((View.whole (main_v0_scv : Ref sig .scVector)).slice (orow i)).set = _
  rw [View.set_slice]; exact Finset.map_refl
omit [FloatOps F] in
theorem irows_disjoint : ∀ i ∈ (Finset.univ : Finset (Fin 16)), ∀ j ∈ (Finset.univ : Finset (Fin 16)), i ≠ j → Disjoint (iRowSet i) (iRowSet j) :=
  fun i _ j _ h => by rw [iRowSet_eq, iRowSet_eq]; exact Rect.part_disjoint idiv h
omit [FloatOps F] in
theorem orows_disjoint : ∀ i ∈ (Finset.univ : Finset (Fin 16)), ∀ j ∈ (Finset.univ : Finset (Fin 16)), i ≠ j → Disjoint (oRowSet i) (oRowSet j) :=
  fun i _ j _ h => by rw [oRowSet_eq, oRowSet_eq]; exact Rect.part_disjoint odiv h
omit [FloatOps F] in
theorem irows_cover : (Finset.univ : Finset (Fin 16)).biUnion iRowSet = Finset.univ :=
  (Finset.biUnion_congr rfl fun i _ => iRowSet_eq i).trans (Rect.biUnion_part idiv)
omit [FloatOps F] in
theorem orows_cover : (Finset.univ : Finset (Fin 16)).biUnion oRowSet = Finset.univ :=
  (Finset.biUnion_congr rfl fun i _ => oRowSet_eq i).trans (Rect.biUnion_part odiv)

omit [FloatOps F] in
theorem iPts_rows (d : Dev nD) (f : Buf (Elt F) (iLoc d)) :
    (iLoc d ↦{fullShare} f : sProp 𝕄) = bigSep Finset.univ fun i : Fin 16 => iLoc d ↦[iRowSet i]{fullShare} f := by
  rw [← pointsTo_biUnion Finset.univ (ℓ := iLoc d) iRowSet irows_disjoint, irows_cover]; try rfl
omit [FloatOps F] in
theorem oPts_rows (d : Dev nD) (f : Buf (Elt F) (oLoc d)) :
    (oLoc d ↦{fullShare} f : sProp 𝕄) = bigSep Finset.univ fun i : Fin 16 => oLoc d ↦[oRowSet i]{fullShare} f := by
  rw [← pointsTo_biUnion Finset.univ (ℓ := oLoc d) oRowSet orows_disjoint, orows_cover]; try rfl
omit [FloatOps F] in
theorem tPts_shares (d : Dev nD) (f : Buf (Elt F) (tLoc d)) :
    (tLoc d ↦{fullShare} f : sProp 𝕄) = bigSep Finset.univ fun i : Fin 16 => tLoc d ↦{tq i} f :=
  pointsTo_piecesOf Finset.univ f (by decide) fullShare

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(tPts m d ∗ iPts m d ∗ oPts d (m (oLoc d))) ⊢ |={Set.univ}=> iprop(
      (bigSep Finset.univ fun i : Fin ((K (F := F)).nSub 0) =>
        iprop(tShPts m d (Fin.cast nSub_zero i) ∗ iRowPts m d (Fin.cast nSub_zero i) ∗ oRowPts d (Fin.cast nSub_zero i) (m (oLoc d))))
      ∗ ((bigSep Finset.univ fun i : Fin ((K (F := F)).nSub 0) =>
          iprop(tShPts m d (Fin.cast nSub_zero i) ∗ iRowPts m d (Fin.cast nSub_zero i) ∗ oRowPts d (Fin.cast nSub_zero i) (outOf m d)))
          -∗ iprop(tPts m d ∗ iPts m d ∗ oPts d (outOf m d))))
  rw [bigSep_tasks (F := F) (fun i => iprop(tShPts m d i ∗ iRowPts m d i ∗ oRowPts d i (m (oLoc d)))),
    bigSep_tasks (F := F) (fun i => iprop(tShPts m d i ∗ iRowPts m d i ∗ oRowPts d i (outOf m d))), bigSep_sep', bigSep_sep', bigSep_sep', bigSep_sep']
  unfold tPts iPts oPts tShPts iRowPts oRowPts
  rw [tPts_shares, iPts_rows, oPts_rows, oPts_rows]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((tLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c) = iprop(tPts m d ∗ iPts m d ∗ oPts d (m (oLoc d))) :=
  bigSep_univ_of_subsingleton (0 : Fin 1)
theorem dn0_eq (d : Dev nD) : (bigSep Finset.univ fun c : Fin ((K (F := F)).nCore 0) => (P m).dn 0 d c) = iprop(tPts m d ∗ iPts m d ∗ oPts d (outOf m d)) :=
  bigSep_univ_of_subsingleton (0 : Fin 1)

/-- What @main leaves the claim: the table and the list as launched, the result at `outOf`. -/
abbrev FIN (d : Dev nD) : sProp 𝕄 := iprop(tPts m d ∗ iPts m d ∗ oPts d (outOf m d))

/-- @main on device `d`'s TensorCore: the one call, from the table, the list and the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ht, Hi, Ho⟩, -, -⟩, -⟩
  iapply ((K (F := F)).wp_run (D (F := F)) 𝒱 (EH := EH) (P := P m) κ d 0) $$ [Hst Ht Hi Ho]
  isplitr; · iexact Hctx
  isplitl [Hst]; · iexact Hst
  isplitl [Ht Hi Ho]
  · rw [st0_eq]
    isplitl [Ht]; · iexact Ht
    isplitl [Hi]; · iexact Hi
    iexact Ho
  iintro ⟨Hst, Hdn⟩
  ihave Hdn' := (Entails.of_eq (dn0_eq m d)) $$ Hdn
  icases Hdn' with ⟨Ht, Hi, Ho⟩
  imodintro
  isplitl [Hst]; · iexact Hst
  isplitl [Ht]; · iexact Ht
  isplitl [Hi]; · iexact Hi
  iexact Ho

def fq (d : Dev nD) (s' : Phys nD τ sig (Elt F)) : Prop :=
  s'.mem.mem (oLoc d) = outOf m d ∧ s'.mem.mem (tLoc d) = m (tLoc d) ∧ s'.mem.mem (iLoc d) = m (iLoc d)

set_option maxRecDepth 16384 in
theorem hfin (d : Dev nD) (s' : Phys nD τ sig (Elt F)) : iprop(FIN m d ∗ SI s') ⊢ (⌜fq m d s'⌝ : sProp 𝕄) := by
  iintro ⟨⟨Ht, Hi, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := outOf m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = outOf m c ∧ r.2.mem (tLoc c) = m (tLoc c) ∧ r.2.mem (iLoc c) = m (iLoc c)

/-- Every weakly fair execution of the device's threads terminates, nothing faulting, with the result at
    `takeRows` of the table and the list and both of those unchanged, provided every word of the list names a row. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelIdealRun

end
-- ==== Proof.LibTypedRef.lean ====
/-
  Typed references: the two transports between a value's type and its buffer's type are mutually inverse.

  A typed reference pairs a buffer with a proof that the buffer's type is the value's type; contents move between the
  two types by transport along that proof. Whatever the reference and the type, transporting there and back is the
  identity: once the type equation is substituted both transports are the identity function.
-/
import Idealize.ShloMosaic.Lib.StableHlo

namespace Idealize.ShloMosaic.StableHlo.TRef

variable {sig : RefSig} {Val : EltTy → Type} {T : BufTy}

/-- Contents transported to the buffer's type and back are the contents. -/
theorem ofBuf_toBuf (x : TRef sig T) (v : T.Contents Val) : x.ofBuf (x.toBuf v) = v := by
  obtain ⟨r, h, _, _⟩ := x
  subst h
  rfl

/-- Contents transported to the value's type and back are the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.RefRun.lean ====
/-
  The reference's run, read back: @main is one straight line of twenty-three host operations (the two outlined
  functions unfolded at their calls), so every weakly fair execution terminates with each buffer at the fold of
  those operations over the launch contents. At the result buffer that fold is `refOut` of the two arguments: the
  index list with its negative words shifted up by the row count, an in-range mask over the shifted words, the row
  gather at the shifted words, and a select between the gathered rows and a constant by the mask.
-/
import proofs.«208062_g8211977470007_cont_9to1c4b_635_8_alg».proof.Proof.Gen.ReferenceIdeal
import Idealize.ShloMosaic.Lib.StableHlo.Run
import proofs.«208062_g8211977470007_cont_9to1c4b_635_8_alg».proof.Proof.LibTypedRef

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- The list with every negative word shifted up by the table's row count (`jnp.take`'s wrap-around). -/
def wrapped (o : IVec S256 32) : IVec S256 32 :=
  select (cmpi .slt o (broadcastInDim S256 ![] bcast_S_S256 (constantI S_ 32 0#32)))
    (addi o (broadcastInDim S256 ![] bcast_S_S256 (constantI S_ 32 1000000#32))) o

/-- The shifted list as a column `[256, 1]`: the gather's start indices. -/
def startIdx (o : IVec S256 32) : IVec S256x1 32 := broadcastInDim S256x1 ![0] bcast_S256_S256x1_0 (wrapped o)

/-- Per row: is its start index a row number of the table, `0 ≤ · ≤ 999999`? -/
def inRange (o : IVec S256 32) : IVec S256 1 :=
  Host.reduce IntOp.andi
    (andi (cmpi .sge (startIdx o) (broadcastInDim S256x1 ![] bcast_S_S256x1 (constantI S_ 32 0#32)))
      (cmpi .sle (startIdx o) (broadcastInDim S256x1 ![0, 1] bcast_S1x1_S256x1_0_1
        (broadcastInDim S1x1 ![1] bcast_S1_S1x1_1 (constantI S1 32 999999#32)))))
    (constantI S_ 1 1#1) reducesTo_S256x1_S256_d1 h_S_

/-- What the reference leaves in its result buffer, as a function of its two arguments. -/
def refOut (x : FVec F S1000000x128 .f32) (o : IVec S256 32) : FVec F S256x128 .f32 :=
  select (broadcastInDim S256x128 ![0] bcast_S256_S256x128_0 (inRange o))
    (Host.gather gather_S1000000x128_S256x1_S256x128_1_0_n_n_0_1_1128 x (startIdx o))
    (broadcastInDim S256x128 ![] bcast_S_S256x128 (constant S_ .f32 0x7FC00000#32))

/-- @main's operations in order, the calls unfolded: `_take`'s twenty-two around `_where`'s one select. -/
abbrev ops : List (HloOp τ sig (Elt F)) :=
  [ TRef.nullary main_call0.c (constantI S_ 32 0#32),
    TRef.unary main_call0.c main_call0.v0 (broadcastInDim S256 ![] bcast_S_S256),
    TRef.binary (.of main_arg1) main_call0.v0 main_call0.v1 (cmpi .slt),
    TRef.nullary main_call0.c_0 (constantI S_ 32 1000000#32),
    TRef.unary main_call0.c_0 main_call0.v2 (broadcastInDim S256 ![] bcast_S_S256),
    TRef.binary (.of main_arg1) main_call0.v2 main_call0.v3 addi,
    TRef.ternary main_call0.v1 main_call0.v3 (.of main_arg1) main_call0.call0.v0 select,
    TRef.unary main_call0.call0.v0 main_call0.v5 (broadcastInDim S256x1 ![0] bcast_S256_S256x1_0),
    TRef.nullary main_call0.c_1 (constantI S1 32 999999#32),
    TRef.nullary main_call0.c_2 (constantI S_ 32 0#32),
    TRef.unary main_call0.c_2 main_call0.v6 (broadcastInDim S256x1 ![] bcast_S_S256x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S256x1 ![0, 1] bcast_S1x1_S256x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S256x1_S256_d1 h_S_),
    TRef.binary (.of main_arg0) main_call0.v5 main_call0.v13 (fun x i => Host.gather gather_S1000000x128_S256x1_S256x128_1_0_n_n_0_1_1128 x i),
    TRef.unary main_call0.v12 main_call0.v14 (broadcastInDim S256x128 ![0] bcast_S256_S256x128_0),
    TRef.nullary main_call0.cst (constant S_ .f32 0x7FC00000#32),
    TRef.unary main_call0.cst main_call0.v15 (broadcastInDim S256x128 ![] bcast_S_S256x128),
    TRef.ternary main_call0.v14 main_call0.v13 main_call0.v15 main_call0.v16 select ]

set_option maxRecDepth 1024 in
/-- @main is that straight line: the functions' bodies unfolded at their calls, sequencing reassociated. -/
theorem main_eq (c : Dev nD) : main (F := F) c = seq ops := by
  simp only [main, fn_take.body, fn_where.body, seq, bind_assoc, pure_bind]

attribute [local irreducible] Host.reduce Host.gather in
set_option maxRecDepth 8192 in
set_option maxHeartbeats 400000 in
/-- The fold at the result buffer is `refOut` of the arguments' contents. -/
theorem out_eq (V : Valuation τ sig (Elt F)) :
    after ops V (main_v0 : DevRef τ sig) = refOut (V (main_arg0 : DevRef τ sig)) (V (main_arg1 : DevRef τ sig)) := by
  unfold refOut inRange startIdx wrapped
  after_results
  simp only [TRef.ofBuf_toBuf]
  rfl

theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- On every device, from any memory with zero counters: every weakly fair execution of @main terminates with
    the result at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _), (h c main_arg1).trans (arg1_eq _)⟩)
    (run_seq scopedRefs_eq scopedSems_eq defs main (fun _ => ops) main_eq (fun _ => ops_sub) m ρ)

end Cert.Proof.RefRun

end
-- ==== Proof.RefValue.lean ====
/-
  The reference's result is `takeRows` of its arguments when every word of the list is at most 255000: such a word is
  not negative, so the wrap-around leaves it alone; it is a row number of the table, so the in-range mask is all
  ones and the select keeps the gathered rows; and the gather's clamp of a start index into the table's rows does
  nothing to it, so row `r` of the gather is the table's row named by word `r`.
-/
import proofs.«208062_g8211977470007_cont_9to1c4b_635_8_alg».proof.Proof.RefRun
import proofs.«208062_g8211977470007_cont_9to1c4b_635_8_alg».proof.Proof.GatherSpec
import Idealize.ShloMosaic.Lib.ValueIdx

noncomputable section

namespace Cert.Proof.RefValue

open Cert.ReferenceIdeal Cert.ReferenceIdeal.Gen Cert.Proof.RefRun Cert.Proof.GatherSpec
open Idealize.ShloMosaic Idealize.ShloMosaic.ValueIdx

variable {F : FTy → Type} [FloatOps F]

/-! ## Words at most 255000 -/

theorem not_neg (v : BitVec 32) (h : v.toNat ≤ 255000) : IntOp.cmpi .slt v 0#32 = 0#1 := by
  have : v.slt 0#32 = false := by
    simp only [BitVec.slt_eq_decide, BitVec.toInt_eq_toNat_cond, BitVec.toNat_ofNat, Nat.reducePow, Nat.reduceMod, decide_eq_false_iff_not]
    omega
  simp [IntOp.cmpi, this]

theorem ge_zero (v : BitVec 32) (h : v.toNat ≤ 255000) : IntOp.cmpi .sge v 0#32 = 1#1 := by
  have : (0#32 : BitVec 32).sle v = true := by
    simp only [BitVec.sle_eq_decide, BitVec.toInt_eq_toNat_cond, BitVec.toNat_ofNat, Nat.reducePow, Nat.reduceMod, decide_eq_true_eq]
    omega
  simp [IntOp.cmpi, this]

theorem le_last (v : BitVec 32) (h : v.toNat ≤ 255000) : IntOp.cmpi .sle v 999999#32 = 1#1 := by
  have : v.sle 999999#32 = true := by
    simp only [BitVec.sle_eq_decide, BitVec.toInt_eq_toNat_cond, BitVec.toNat_ofNat, Nat.reducePow, Nat.reduceMod, decide_eq_true_eq]
    omega
  simp [IntOp.cmpi, this]

theorem toInt_toNat (v : BitVec 32) (h : v.toNat ≤ 255000) : v.toInt.toNat = v.toNat := by
  rw [BitVec.toInt_eq_toNat_cond]
  have : 2 * v.toNat < 2 ^ 32 := by omega
  rw [if_pos this]
  exact Int.toNat_natCast _

/-! ## The stages, read at an index -/

variable (o : IVec S256 32) (ho : ∀ j, (o j).toNat ≤ 255000)

include ho in
/-- No word is negative: the wrap-around is the identity. -/
theorem wrapped_eq : wrapped o = o := by
  funext j
  show Scalar.select (IntOp.cmpi .slt (o j) 0#32) _ (o j) = o j
  rw [not_neg _ (ho j), select_zero]

include ho in
/-- The start index of row `r` is word `r` of the list. -/
theorem startIdx_apply (r : Fin 256) (z : Fin 1) : startIdx o (ix2 r z) = o (ix1 r) := by
  unfold startIdx
  rw [wrapped_eq o ho]
  show o _ = o _
  congr 1
  funext a
  match a with
  | ⟨0, _⟩ => rfl

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

include ho in
/-- Every start index is a row number of the table: the mask is all ones. -/
theorem inRange_eq (r : Fin 256) : inRange o (ix1 r) = 1#1 := by
  unfold inRange Host.reduce
  refine foldl_andi_ones _ (fun n => ?_) _
  obtain ⟨r', z, hrz⟩ : ∃ (r' : Fin 256) (z : Fin 1), S256x1.rowMajor.symm n = ix2 r' z := ⟨_, _, eq_ix2 _⟩
  rw [hrz]
  show IntOp.andi (IntOp.cmpi .sge (startIdx o (ix2 r' z)) 0#32) (IntOp.cmpi .sle (startIdx o (ix2 r' z)) 999999#32) = 1#1
  rw [startIdx_apply o ho, ge_zero _ (ho _), le_last _ (ho _)]
  decide

/-! ## The gather, read at an index -/

/-- Row `r`, column `c` of the row gather: the table at the row its start index names — read signed and clamped into
    the table's rows — and column `c`. -/
theorem gather_apply {α : Type} (x : S1000000x128.Idx → α) (idx : IVec S256x1 32) (r : Fin 256) (c : Fin 128) :
    Host.gather gather_S1000000x128_S256x1_S256x128_1_0_n_n_0_1_1128 x idx (ix2 r c)
      = x (ix2 (⟨min (idx (ix2 r (0 : Fin 1))).toInt.toNat 999999, by omega⟩ : Fin 1000000) c) := by
  unfold Host.gather
  congr 1
  funext a
  match a with
  | ⟨0, _⟩ =>
    refine Fin.ext ?_
    show gather_S1000000x128_S256x1_S256x128_1_0_n_n_0_1_1128.start (ix2 r c) idx 0 + gather_S1000000x128_S256x1_S256x128_1_0_n_n_0_1_1128.batchCoord (ix2 r c) 0 + gather_S1000000x128_S256x1_S256x128_1_0_n_n_0_1_1128.offCoord (ix2 r c) 0 = _
    rw [GatherDims.batchCoord_eq_zero _ _ _ (show (0 : Fin 2) ∉ ([] : List (Fin 2)) from List.not_mem_nil),
      GatherDims.offCoord_eq_zero _ _ _ (fun h => ((GatherDims.mem_sKept _ _).mp h).1 (show (0 : Fin 2) ∈ [(0 : Fin 2)] from List.mem_singleton.mpr rfl))]
    simp only [Nat.add_zero]
    unfold GatherDims.start
    rw [dif_pos (show (0 : Fin 2) ∈ gather_S1000000x128_S256x1_S256x128_1_0_n_n_0_1_1128.startIndexMap from List.mem_singleton.mpr rfl)]
    have hsi : gather_S1000000x128_S256x1_S256x128_1_0_n_n_0_1_1128.siIdx (ix2 r c) ⟨List.idxOf (0 : Fin 2) gather_S1000000x128_S256x1_S256x128_1_0_n_n_0_1_1128.startIndexMap,
        List.idxOf_lt_length_iff.2 (show (0 : Fin 2) ∈ gather_S1000000x128_S256x1_S256x128_1_0_n_n_0_1_1128.startIndexMap from List.mem_singleton.mpr rfl)⟩
        = (ix2 r (0 : Fin 1) : S256x1.Idx) := by
      funext b
      refine Fin.ext ?_
      match b with
      | ⟨0, _⟩ => rfl
      | ⟨1, _⟩ => rfl
    rw [hsi]
    rfl
  | ⟨1, _⟩ =>
    refine Fin.ext ?_
    show gather_S1000000x128_S256x1_S256x128_1_0_n_n_0_1_1128.start (ix2 r c) idx 1 + gather_S1000000x128_S256x1_S256x128_1_0_n_n_0_1_1128.batchCoord (ix2 r c) 1 + gather_S1000000x128_S256x1_S256x128_1_0_n_n_0_1_1128.offCoord (ix2 r c) 1 = _
    rw [GatherDims.batchCoord_eq_zero _ _ _ (show (1 : Fin 2) ∉ ([] : List (Fin 2)) from List.not_mem_nil)]
    unfold GatherDims.start
    rw [dif_neg (show (1 : Fin 2) ∉ gather_S1000000x128_S256x1_S256x128_1_0_n_n_0_1_1128.startIndexMap from fun h => absurd (List.mem_singleton.mp h) (by decide))]
    simp only [Nat.add_zero, Nat.zero_add]
    rfl

/-! ## The reference's result -/

include ho in
/-- With every word of the list at most 255000, the reference's result is `takeRows` of the table and the list. -/
theorem refOut_eq (x : FVec F S1000000x128 .f32) : refOut x o = takeRows x o := by
  funext j
  obtain ⟨r, c, rfl⟩ : ∃ (r : Fin 256) (c : Fin 128), j = ix2 r c := ⟨j 0, j 1, eq_ix2 j⟩
  have hall : ∀ k : S256.Idx, inRange o k = 1#1 := fun k => by rw [eq_ix1 k]; exact inRange_eq o ho _
  unfold refOut
  rw [select_apply]
  have hm : broadcastInDim S256x128 ![0] bcast_S256_S256x128_0 (inRange o) (ix2 r c) = 1#1 := hall _
  rw [hm, select_one, gather_apply, takeRows_apply]
  congr 1
  funext a
  match a with
  | ⟨0, _⟩ =>
    apply Fin.ext
    show min (startIdx o (ix2 r (0 : Fin 1))).toInt.toNat 999999 = min (o (ix1 r)).toNat 999999
    rw [startIdx_apply o ho, toInt_toNat _ (ho _)]
  | ⟨1, _⟩ => rfl

end Cert.Proof.RefValue

end
-- ==== Proof.lean ====
/-
  The claim: the kernel gathers rows of a table. Sixteen vector subcores of one SparseCore each take sixteen words
  of a 256-word index list, stream the sixteen table rows those words name into a scratch, and copy the scratch to
  their sixteen rows of the 256-row result; the reference is `jnp.take` along axis 0. Both programs leave in the
  result, row by row, the table's row named by the list's word for that row (`GatherSpec.takeRows`); no float is
  computed, so the two results are equal at every float instance, the extended reals among them.

  The precondition bounds every word of the list by 255000 (read signed, from below by 0), which makes every word
  a row number of the million-row table. The kernel needs that for its stream to serve every entry; the reference
  needs it for its wrap-around of negative words, its in-range mask and its clamp each to do nothing.

  The three frames are the runs with the values dropped; the idealization rewrote nothing, so `preserves` is
  `True`; `algebraic` pairs the kernel's run at the extended reals with the reference's, both at `takeRows`.
-/
import proofs.«208062_g8211977470007_cont_9to1c4b_635_8_alg».proof.Defs
import proofs.«208062_g8211977470007_cont_9to1c4b_635_8_alg».proof.Proof.Gen.Kernel
import proofs.«208062_g8211977470007_cont_9to1c4b_635_8_alg».proof.Proof.Gen.Kernel.Skeleton
import proofs.«208062_g8211977470007_cont_9to1c4b_635_8_alg».proof.Proof.Gen.KernelIdeal
import proofs.«208062_g8211977470007_cont_9to1c4b_635_8_alg».proof.Proof.Gen.KernelIdeal.Skeleton
import proofs.«208062_g8211977470007_cont_9to1c4b_635_8_alg».proof.Proof.Gen.ReferenceIdeal
import proofs.«208062_g8211977470007_cont_9to1c4b_635_8_alg».proof.Proof.Gen.Pre_input_domain
import proofs.«208062_g8211977470007_cont_9to1c4b_635_8_alg».proof.Proof.PreRange
import proofs.«208062_g8211977470007_cont_9to1c4b_635_8_alg».proof.Proof.KernelRun
import proofs.«208062_g8211977470007_cont_9to1c4b_635_8_alg».proof.Proof.KernelIdealRun
import proofs.«208062_g8211977470007_cont_9to1c4b_635_8_alg».proof.Proof.RefRun
import proofs.«208062_g8211977470007_cont_9to1c4b_635_8_alg».proof.Proof.RefValue
import Idealize.ShloMosaic.Adequacy
import Idealize.ShloMosaic.Init

noncomputable section

namespace Cert.Proof

open Idealize.ShloMosaic Idealize.SL.Sem

/-- Under the precondition every word of the word-level kernel's list names a row of the table. -/
theorem preOK_kernel (m : (ℓ : Loc Cert.Kernel.nD Cert.Kernel.τ Cert.Kernel.sig) → Buf (Elt Bits) ℓ)
    (h : Cert.Pre_Kernel (hPre_input_domain := Cert.Pre_input_domain.Gen.facts) m) : Cert.Proof.KernelRun.PreOK (F := Bits) m :=
  fun d j => Nat.lt_of_le_of_lt (Cert.Proof.PreRange.ord_le _ _ (h d) j) (by decide)

/-- The same of the idealized kernel's list. -/
theorem preOK_kernelIdeal (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : Cert.Proof.KernelIdealRun.PreOK (F := Ideal) m :=
  fun d j => Nat.lt_of_le_of_lt (Cert.Proof.PreRange.ord_le _ _ (h d) j) (by decide)

theorem frame_k : Cert.frame_Kernel (hKernel := Cert.Kernel.Gen.facts) (hPre_input_domain := Cert.Pre_input_domain.Gen.facts) :=
  fun m ρ hpre => (θ_run Cert.Kernel.defs _ _).mono (fun _ h c => ⟨(h c).2.1, (h c).2.2⟩)
    (Cert.Proof.KernelRun.run_main (F := Bits) m ρ (preOK_kernel m hpre))

theorem frame_ki : Cert.frame_KernelIdeal (hKernelIdeal := Cert.KernelIdeal.Gen.facts) (hPre_input_domain := Cert.Pre_input_domain.Gen.facts) :=
  fun m ρ hpre => (θ_run Cert.KernelIdeal.defs _ _).mono (fun _ h c => ⟨(h c).2.1, (h c).2.2⟩)
    (Cert.Proof.KernelIdealRun.run_main (F := Ideal) m ρ (preOK_kernelIdeal m hpre))

theorem frame_r : Cert.frame_ReferenceIdeal (hReferenceIdeal := Cert.ReferenceIdeal.Gen.facts) (hPre_input_domain := Cert.Pre_input_domain.Gen.facts) :=
  fun m ρ _ => (θ_run Cert.ReferenceIdeal.defs _ _).mono (fun _ h c => (h c).2) (Cert.Proof.RefRun.run (F := Ideal) m ρ)

/-- At the extended reals the kernel's result and the reference's are one array: `takeRows` of the table and the
    list the two memories agree on. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  refine ⟨fun c => Cert.Proof.KernelIdealRun.outOf m c, ?_, ?_⟩
  · exact (θ_run Cert.KernelIdeal.defs _ _).mono (fun _ h c => h c)
      (Cert.Proof.KernelIdealRun.run_main (F := Ideal) m ρ (preOK_kernelIdeal m hpre))
  · refine (θ_run Cert.ReferenceIdeal.defs _ _).mono (fun _ h c => ⟨(h c).1.trans ?_, (h c).2⟩)
      (Cert.Proof.RefRun.run (F := Ideal) m' ρ')
    rw [(hagree c).1, (hagree c).2]
    exact Cert.Proof.RefValue.refOut_eq _ (Cert.Proof.PreRange.ord_le _ _ (hpre c)) _

theorem claim : Cert.Claim := ⟨Cert.Kernel.Gen.facts, Cert.KernelIdeal.Gen.facts, Cert.ReferenceIdeal.Gen.facts, Cert.Pre_input_domain.Gen.facts,
  frame_k, frame_ki, frame_r, trivial, algebraic⟩

end Cert.Proof

end
